-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S16384x2048 : Shape := ⟨2, ![16384, 2048]⟩
abbrev S2048x1 : Shape := ⟨2, ![2048, 1]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S2048x1 : S_.BroadcastsInDim S2048x1 (![] : Fin 0 → Fin S2048x1.rank)
  reducesTo_S2048x1_S_d0_1 : S2048x1.ReducesTo [0, 1] S_

variable [Facts]

def fn {F : FTy → Type} [FloatOps F] (main_arg0 : FVec F S1024x2048 .f32) (main_arg1 : FVec F S16384x2048 .f32) (main_arg2 : FVec F S2048x1 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S2048x1 .f32 := Host.absf main_arg2
  let main_cst_2 : FVec F S_ .f32 := constant S_ .f32 0x7F800000#32
  let main_v10 : FVec F S2048x1 .f32 := broadcastInDim S2048x1 ![] bcast_S_S2048x1 main_cst_2
  let main_v11 : IVec S2048x1 1 := cmpf .olt main_v9 main_v10
  let main_c_3 : IVec S_ 1 := constantI S_ 1 1#1
  let main_v12 : IVec S_ 1 := (fun x v => Host.reduce IntOp.andi x v reducesTo_S2048x1_S_d0_1 h_S_) main_v11 main_c_3
  let main_v13 : IVec S_ 1 := andi main_v8 main_v12
  main_v13
-- ==== Kernel.lean ====
abbrev S1024x2048 : Shape := ⟨2, ![1024, 2048]⟩
abbrev S16384x2048 : Shape := ⟨2, ![16384, 2048]⟩
abbrev S2048x1 : Shape := ⟨2, ![2048, 1]⟩
abbrev S2048 : Shape := ⟨1, ![2048]⟩
abbrev S1x2048 : Shape := ⟨2, ![1, 2048]⟩
abbrev S16384x1024 : Shape := ⟨2, ![16384, 1024]⟩
abbrev S512x2048 : Shape := ⟨2, ![512, 2048]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S1024x2048, .f32⟩
  | .hbm, ⟨1, _⟩ => ⟨S16384x2048, .f32⟩
  | .hbm, ⟨2, _⟩ => ⟨S2048x1, .f32⟩
  | .hbm, ⟨3, _⟩ => ⟨S2048, .f32⟩
  | .hbm, ⟨4, _⟩ => ⟨S1x2048, .f32⟩
  | .hbm, ⟨5, _⟩ => ⟨S16384x1024, .f32⟩
  | .local _ .vmem, ⟨0, _⟩ => ⟨S512x2048, .f32⟩
  | .local _ .vmem, ⟨1, _⟩ => ⟨S512x2048, .f32⟩
  | .local _ .vmem, ⟨2, _⟩ => ⟨S1024x2048, .f32⟩
  | .local _ .vmem, ⟨3, _⟩ => ⟨S1x2048, .f32⟩
  | .local _ .vmem, ⟨4, _⟩ => ⟨S512x1024, .f32⟩
  | .local _ .vmem, ⟨5, _⟩ => ⟨S512x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048x1_S2048 : S2048x1.ShapeCasts S2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S512x1024_S512x1024_0_0 : ∀ a, (![0, 0] : Fin 2 → Nat) a + S512x1024.size a ≤ S512x1024.size a
  h_S512x1024 : 0 < S512x1024.numel
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .f32 = 32 ∨ (Rect.block (s := S1024x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .f32 = 32 ∨ (Rect.block (s := S16384x1024) S512x1024.size (cc0_transform_3 i) (hinb0_3 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x2048 : Shape := ⟨2, ![1024, 2048]⟩
abbrev S16384x2048 : Shape := ⟨2, ![16384, 2048]⟩
abbrev S2048x1 : Shape := ⟨2, ![2048, 1]⟩
abbrev S2048 : Shape := ⟨1, ![2048]⟩
abbrev S1x2048 : Shape := ⟨2, ![1, 2048]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S16384x2048, .f32⟩
  | .hbm, ⟨2, _⟩ => ⟨S2048x1, .f32⟩
  | .hbm, ⟨3, _⟩ => ⟨S2048, .f32⟩
  | .hbm, ⟨4, _⟩ => ⟨S1x2048, .f32⟩
  | .hbm, ⟨5, _⟩ => ⟨S16384x2048, .f32⟩
  | .hbm, ⟨6, _⟩ => ⟨S16384x2048, .f32⟩
  | .hbm, ⟨7, _⟩ => ⟨S16384x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  shapeCasts_S2048x1_S2048 : S2048x1.ShapeCasts S2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  dot_S16384x2048_S1024x2048_S16384x1024_1_1_0_0_n_n_wf : DotDims.WF S16384x2048 S1024x2048 S16384x1024 [1] [1] [0] [0] [] []

variable [Facts₀]

def dot_S16384x2048_S1024x2048_S16384x1024_1_1_0_0_n_n : DotDims S16384x2048 S1024x2048 S16384x1024 where
  lhsContracting := [1]
  rhsContracting := [1]
  lhsNonContracting := [0]
  rhsNonContracting := [0]
  lhsBatch := []
  rhsBatch := []
  wf := dot_S16384x2048_S1024x2048_S16384x1024_1_1_0_0_n_n_wf

class Facts : Prop extends Facts₀ where

variable [Facts]
-- ==== Proof.Scores.lean ====
/-
  The bilinear relation scores that both programs compute, stated once as a function of the three argument arrays.

  With class vectors `cls : [1024, 2048]`, query encodings `q : [16384, 2048]` and a diagonal relation given by its
  diagonal `w : [2048, 1]`, the score of query `n` against class `c` is

      score[n, c] = Σ_h  q[n, h] · (cls[c, h] · w[h, 0]).

  One program scales the class vectors by the diagonal and then contracts them with the queries; the other scales the
  queries and then contracts with the class vectors. Term by term the two summands are the same three-fold product
  grouped differently, `(a · d) · b = a · (b · d)`: only commutativity and associativity of the product, which hold on
  all of the extended reals — no finiteness of the inputs is needed, and the sums are over the same index in the same
  order.
-/
import Idealize.ShloMosaic.PureOps.Ideal
import Idealize.ShloMosaic.Lib.ValueIdx

noncomputable section

open scoped BigOperators

namespace Cert.RelationScores

open Idealize.ShloMosaic Idealize.ShloMosaic.ValueIdx

/-- The score array: entry `(n, c)` is the sum over the embedding coordinate `h` of the query's coordinate times the
    class vector's coordinate scaled by the diagonal's entry. -/
def scores (cls : (⟨2, ![1024, 2048]⟩ : Shape).Idx → EReal) (q : (⟨2, ![16384, 2048]⟩ : Shape).Idx → EReal)
    (w : (⟨2, ![2048, 1]⟩ : Shape).Idx → EReal) : (⟨2, ![16384, 1024]⟩ : Shape).Idx → EReal :=
  fun i => ∑ h : Fin 2048, q (ix2 (i 0) h) * (cls (ix2 (i 1) h) * w (ix2 h (0 : Fin 1)))

/-- The same entry with the index given by its two coordinates. -/
theorem scores_ix2 (cls : (⟨2, ![1024, 2048]⟩ : Shape).Idx → EReal) (q : (⟨2, ![16384, 2048]⟩ : Shape).Idx → EReal)
    (w : (⟨2, ![2048, 1]⟩ : Shape).Idx → EReal) (n : Fin 16384) (c : Fin 1024) :
    scores cls q w (ix2 n c) = ∑ h : Fin 2048, q (ix2 n h) * (cls (ix2 c h) * w (ix2 h (0 : Fin 1))) := rfl

/-- Scaling the query's coordinate first and then pairing it with the class vector's is pairing it with the scaled
    class vector's coordinate: a three-fold product regrouped. -/
theorem scale_query_eq_scale_class (a b d : EReal) : a * d * b = a * (b * d) := by
  rw [mul_assoc, mul_comm d b]

end Cert.RelationScores

end
-- ==== Proof.RefScores.lean ====
/-
  The reference program's result is the score array.

  The reference reshapes the diagonal `[2048, 1]` to a vector, broadcasts it over the 16384 queries, multiplies the
  query encodings by it coordinatewise, and contracts the scaled queries with the class vectors over the embedding
  axis. Read at entry `(n, c)`: the sum over `h` of `(q[n, h] · w[h, 0]) · cls[c, h]`, which is the score's summand
  `q[n, h] · (cls[c, h] · w[h, 0])` regrouped.
-/
import proofs.«112901_j12713103197296_1_alg».proof.Proof.Gen.ReferenceIdeal.Read
import proofs.«112901_j12713103197296_1_alg».proof.Proof.Scores

noncomputable section

open scoped BigOperators

namespace Cert.ReferenceIdeal.RefValue

open Cert.ReferenceIdeal Cert.ReferenceIdeal.Read Idealize.ShloMosaic Idealize.ShloMosaic.ValueIdx Cert.RelationScores

/-- The scaled queries' entry the contraction reads on its left at output entry `i`, position `h`, is `(n, h)`. -/
theorem left_index (i : S16384x1024.Idx) (h : Fin 2048) : lidx_main_v4 i h = ix2 (i 0) h :=
  funext fun a => Fin.ext (by match a with | ⟨0, _⟩ => rfl | ⟨1, _⟩ => rfl)

/-- The class vectors' entry it reads on its right is `(c, h)`. -/
theorem right_index (i : S16384x1024.Idx) (h : Fin 2048) : ridx_main_v4 i h = ix2 (i 1) h :=
  funext fun a => Fin.ext (by match a with | ⟨0, _⟩ => rfl | ⟨1, _⟩ => rfl)

/-- The diagonal's entry that scales coordinate `h` of every query, traced back through the two broadcasts and the
    reshape, is `(h, 0)`. -/
theorem diagonal_index (j : S16384x2048.Idx) (h : Fin 2048) (hj : (j 1).val = h.val) :
    idx_main_v0 (idx_main_v1 (idx_main_v2 j)) = ix2 h (0 : Fin 1) :=
  funext fun a => Fin.ext (by
    match a with
    | ⟨0, _⟩ => show (j 1).val / 1 = h.val; rw [Nat.div_one, hj]
    | ⟨1, _⟩ => rfl)

/-- The reference's result, as a function of the three argument arrays, is the score array. -/
theorem result_eq_scores (x0 : (⟨S1024x2048, .f32⟩ : BufTy).Contents (Elt Ideal)) (x1 : (⟨S16384x2048, .f32⟩ : BufTy).Contents (Elt Ideal))
    (x2 : (⟨S2048x1, .f32⟩ : BufTy).Contents (Elt Ideal)) :
    val_main_v4 (F := Ideal) x0 x1 x2 = scores x0 x1 x2 := by
  funext i
  rw [val_main_v4_apply]
  unfold scores
  refine Finset.sum_congr rfl fun h _ => ?_
  rw [val_main_v3_apply, val_main_v2_apply, val_main_v1_apply, val_main_v0_apply,
    diagonal_index (lidx_main_v4 i h) h rfl, left_index, right_index]
  exact scale_query_eq_scale_class _ _ _

end Cert.ReferenceIdeal.RefValue

end
-- ==== Proof.BlockProduct.lean ====
/-
  One grid point's arithmetic, read at an entry of its output block.

  At a grid point the body holds a block of 512 queries `x0 : [512, 2048]`, all 1024 class vectors `x1 : [1024, 2048]`
  and the diagonal as a row `x2 : [1, 2048]`. It narrows all three to bf16 (the identity on extended reals), multiplies
  every class vector coordinatewise by the row (the row broadcast over the 1024 classes), and contracts the queries
  with the scaled class vectors over the embedding axis into a zero accumulator. So entry `(p, r)` of the block is

      Σ_h  x0[p, h] · (x1[r, h] · x2[0, h]).
-/
import proofs.«112901_j12713103197296_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-- The diagonal's row, broadcast over the class axis, read at class `r` and coordinate `h` is the row's entry `h`. -/
theorem row_broadcast_apply (y : FVec Ideal S1x2048 .bf16) (r : Fin 1024) (h : Fin 2048) :
    broadcastTo S1024x2048 y broadcasts_S1x2048_S1024x2048 (ix2 r h) = y (ix2 (0 : Fin 1) h) :=
  broadcastTo_apply y broadcasts_S1x2048_S1024x2048 (ix2 r h) (ix2 (0 : Fin 1) h) (fun a => by
    match a with
    | ⟨0, _⟩ => show (0 : Nat) = if (1 : Nat) = 1 then 0 else _; rw [if_pos rfl]
    | ⟨1, _⟩ => show h.val = if (2048 : Nat) = 1 then 0 else h.val; rw [if_neg (by decide)])

/-- The contraction's left operand index at output entry `(p, r)` and contraction position `h` is `(p, h)`. -/
theorem lhs_index (p : Fin 512) (r : Fin 1024) (h : Fin 2048) :
    dot_S512x2048_S1024x2048_S512x1024_1_1_0_0_n_n.lhsIdx (ix2 p r)
      ((contrEquiv1 dot_S512x2048_S1024x2048_S512x1024_1_1_0_0_n_n 2048 rfl rfl).symm h) = ix2 p h := by
  have hk := contrEquiv1_symm_val dot_S512x2048_S1024x2048_S512x1024_1_1_0_0_n_n 2048 rfl rfl h
  funext a
  apply Fin.ext
  match a with
  | ⟨0, _⟩ =>
    show (dot_S512x2048_S1024x2048_S512x1024_1_1_0_0_n_n.lhsIdx (ix2 p r) _ 0).val = p.val
    unfold DotDims.lhsIdx
    rw [dif_neg (show ¬(0 : Fin S512x2048.rank) ∈ dot_S512x2048_S1024x2048_S512x1024_1_1_0_0_n_n.lhsBatch by decide),
      dif_pos (show (0 : Fin S512x2048.rank) ∈ dot_S512x2048_S1024x2048_S512x1024_1_1_0_0_n_n.lhsNonContracting by decide)]
    rfl
  | ⟨1, _⟩ =>
    exact (dot_S512x2048_S1024x2048_S512x1024_1_1_0_0_n_n.lhsIdx_val_of_single rfl (ix2 p r) _).trans hk

/-- The contraction's right operand index at output entry `(p, r)` and contraction position `h` is `(r, h)`: both
    operands are contracted over their last axis. -/
theorem rhs_index (p : Fin 512) (r : Fin 1024) (h : Fin 2048) :
    dot_S512x2048_S1024x2048_S512x1024_1_1_0_0_n_n.rhsIdx (ix2 p r)
      ((contrEquiv1 dot_S512x2048_S1024x2048_S512x1024_1_1_0_0_n_n 2048 rfl rfl).symm h) = ix2 r h := by
  have hk := contrEquiv1_symm_val dot_S512x2048_S1024x2048_S512x1024_1_1_0_0_n_n 2048 rfl rfl h
  funext a
  apply Fin.ext
  match a with
  | ⟨0, _⟩ =>
    show (dot_S512x2048_S1024x2048_S512x1024_1_1_0_0_n_n.rhsIdx (ix2 p r) _ 0).val = r.val
    unfold DotDims.rhsIdx
    rw [dif_neg (show ¬(0 : Fin S1024x2048.rank) ∈ dot_S512x2048_S1024x2048_S512x1024_1_1_0_0_n_n.rhsBatch by decide),
      dif_pos (show (0 : Fin S1024x2048.rank) ∈ dot_S512x2048_S1024x2048_S512x1024_1_1_0_0_n_n.rhsNonContracting by decide)]
    rfl
  | ⟨1, _⟩ =>
    exact (dot_S512x2048_S1024x2048_S512x1024_1_1_0_0_n_n.rhsIdx_val_of_single rfl (ix2 p r) _).trans hk

/-- Entry `(p, r)` of the block a grid point computes: the query block's row `p` against class vector `r` scaled by the
    diagonal's row, summed over the embedding coordinate. -/
theorem block_entry (x0 : Vec Ideal S512x2048 .f32) (x1 : Vec Ideal S1024x2048 .f32) (x2 : Vec Ideal S1x2048 .f32)
    (p : Fin 512) (r : Fin 1024) :
    k0_pay1 (F := Ideal) x0 x1 x2 (ix2 p r)
      = ∑ h : Fin 2048, x0 (ix2 p h) * (x1 (ix2 r h) * x2 (ix2 (0 : Fin 1) h)) := by
  unfold k0_pay1
  refine (Ideal.matmul_constant_zero_apply dot_S512x2048_S1024x2048_S512x1024_1_1_0_0_n_n none _ _ (ix2 p r)).trans ?_
  rw [← Equiv.sum_comp (contrEquiv1 dot_S512x2048_S1024x2048_S512x1024_1_1_0_0_n_n 2048 rfl rfl).symm]
  refine Finset.sum_congr rfl fun h _ => ?_
  rw [lhs_index p r h, rhs_index p r h]
  rw [truncf_apply, mulf_apply, truncf_apply, row_broadcast_apply, truncf_apply, shapeCast_self]

end Cert.KernelIdeal.BlockValue

end
-- ==== Proof.Blocks.lean ====
/-
  From the grid points' blocks to the whole score array.

  The grid has 32 points. Point `t` is handed rows `512 t … 512 t + 511` of the query encodings, all of the class
  vectors and the diagonal as a `[1, 2048]` row (the two reshapes before the launch re-lay the `[2048, 1]` column as that
  row: entry `(0, h)` of the row is entry `(h, 0)` of the column), and writes back rows `512 t … 512 t + 511` of the
  result. So what point `t` writes is block `t` of the score array of the three arguments, and the 32 blocks cover
  the array: row `n` lies in the block of point `n / 512`.
-/
import proofs.«112901_j12713103197296_1_alg».proof.Proof.Gen.KernelIdeal.Value
import proofs.«112901_j12713103197296_1_alg».proof.Proof.BlockProduct
import proofs.«112901_j12713103197296_1_alg».proof.Proof.Scores
import Idealize.ShloMosaic.Lib.Pipeline.Value
import Idealize.ShloMosaic.Lib.StableHlo.Run
import Idealize.ShloMosaic.Lib.Tactic

noncomputable section

open scoped BigOperators

namespace Cert.KernelIdeal.ArrayValue

open Cert.KernelIdeal Cert.KernelIdeal.Gen Cert.KernelIdeal.Value Cert.KernelIdeal.BlockValue Cert.RelationScores
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## The diagonal as a row -/

/-- When the launch begins, the row buffer holds the diagonal's column reshaped twice: to a vector, then to a row. -/
theorem row_eq (c : Dev nD) :
    (V m c main_v1 : S1x2048.Idx → Elt Ideal .f32)
      = shapeCast S1x2048 (shapeCast S2048 (m ((c : Thread nD τ).loc main_arg2)) shapeCasts_S2048x1_S2048) shapeCasts_S2048_S1x2048 := by
  dsimp only [Gen.V, Gen.hostOps0]
  after_results
  rfl

/-- Entry `(0, h)` of the row is entry `(h, 0)` of the column: all three layouts list the 2048 numbers in one order. -/
theorem row_apply (c : Dev nD) (h : Fin 2048) :
    (V m c main_v1 : S1x2048.Idx → Elt Ideal .f32) (ix2 (0 : Fin 1) h)
      = (m ((c : Thread nD τ).loc main_arg2) : S2048x1.Idx → Elt Ideal .f32) (ix2 h (0 : Fin 1)) := by
  rw [row_eq]
  rw [shapeCast_apply _ shapeCasts_S2048_S1x2048 (ix2 (0 : Fin 1) h) (ix1 h)
    (by rw [Shape.rowMajor_val_one, Shape.rowMajor_val_two]; show h.val = 0 * 2048 + h.val; omega)]
  exact shapeCast_apply _ shapeCasts_S2048x1_S2048 (ix1 h) (ix2 h (0 : Fin 1))
    (by rw [Shape.rowMajor_val_two, Shape.rowMajor_val_one]; show h.val * 1 + 0 = h.val; omega)

/-! ## Which block each window hands to a grid point -/

/-- The block indices at point `t`, decided over the 32 points: the queries' and the result's block row is `t`; the
    class vectors and the row are one block each, the same at every point. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The queries' block at point `t` is rows `512 t …` of the query encodings. -/
theorem query_block_apply (c : Dev nD) (t : Fin cfg0.N) (y : S512x2048.Idx) (k : S16384x2048.Idx)
    (hk0 : (k 0).val = 512 * t.val + (y 0).val) (hk1 : (k 1).val = (y 1).val) :
    (iblk m c 0 t : Vec Ideal S512x2048 .f32) y = (m ((c : Thread nD τ).loc main_arg1) : S16384x2048.Idx → Elt Ideal .f32) k := by
  obtain ⟨e0, e1, -⟩ := block_indices t
  unfold iblk
  rw [View.read_apply]
  show V m c main_arg1 _ = m (c.tc.loc main_arg1) _
  rw [V_main_arg1 m c]
  refine congrArg _ (funext fun a => Fin.ext ?_)
  match a with
  | ⟨0, _⟩ => show win0_0.index t (0 : Fin 2) * 512 + 1 * (y 0).val = (k 0).val; rw [e0, hk0]; omega
  | ⟨1, _⟩ => show win0_0.index t (1 : Fin 2) * 2048 + 1 * (y 1).val = (k 1).val; rw [e1, hk1]; omega

/-- The class vectors' block at every point is the whole array. -/
theorem class_block_apply (c : Dev nD) (t : Fin cfg0.N) (y : S1024x2048.Idx) :
    (iblk m c 1 t : Vec Ideal S1024x2048 .f32) y = (m ((c : Thread nD τ).loc main_arg0) : S1024x2048.Idx → Elt Ideal .f32) y := by
  obtain ⟨-, -, e0, e1, -⟩ := block_indices t
  unfold iblk
  rw [View.read_apply]
  show V m c main_arg0 _ = m (c.tc.loc main_arg0) _
  rw [V_main_arg0 m c]
  refine congrArg _ (funext fun a => Fin.ext ?_)
  match a with
  | ⟨0, _⟩ => show win0_1.index t (0 : Fin 2) * 1024 + 1 * (y 0).val = (y 0).val; rw [e0]; omega
  | ⟨1, _⟩ => show win0_1.index t (1 : Fin 2) * 2048 + 1 * (y 1).val = (y 1).val; rw [e1]; omega

/-- The row's block at every point is the whole row buffer. -/
theorem row_block_apply (c : Dev nD) (t : Fin cfg0.N) (y : S1x2048.Idx) :
    (iblk m c 2 t : Vec Ideal S1x2048 .f32) y = (V m c main_v1 : S1x2048.Idx → Elt Ideal .f32) y := by
  obtain ⟨-, -, -, -, e0, e1, -⟩ := block_indices t
  unfold iblk
  rw [View.read_apply]
  show V m c main_v1 _ = V m c main_v1 _
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 2048 + 1 * (y 1).val = (y 1).val; rw [e1]; omega

/-! ## What a point writes back -/

/-- Point `t` writes back block `t` of the score array of the three arguments. -/
theorem flushed_eq (c : Dev nD) (t : Fin cfg0.N) :
    (dats m 0 c).flushed 3 t = ((cfg0.win 3).blk t).view.read (Elt Ideal)
      (scores (m ((c : Thread nD τ).loc main_arg0)) (m ((c : Thread nD τ).loc main_arg1)) (m ((c : Thread nD τ).loc main_arg2))) := by
  rw [Value.flushed3]
  unfold out0_3
  rw [View.canon_unit_zero zero_offsets]
  simp only [View.ld_unit_zero (S := S512x2048) zero_offsets, View.ld_unit_zero (S := S1024x2048) zero_offsets,
    View.ld_unit_zero (S := S1x2048) zero_offsets]
  obtain ⟨-, -, -, -, -, -, e0, e1⟩ := block_indices t
  funext j
  obtain ⟨p, r, rfl⟩ : ∃ (p : Fin 512) (r : Fin 1024), j = ix2 p r := ⟨j 0, j 1, eq_ix2 j⟩
  show k0_pay1 (F := Ideal) (iblk m c 0 t) (iblk m c 1 t) (iblk m c 2 t) (ix2 p r)
    = scores _ _ _ (((cfg0.win 3).blk t).view.emb (ix2 p r))
  refine (block_entry (iblk m c 0 t) (iblk m c 1 t) (iblk m c 2 t) p r).trans ?_
  have hrow : ((((cfg0.win 3).blk t).view.emb (ix2 p r)) 0).val = 512 * t.val + p.val := by
    show win0_3.index t (0 : Fin 2) * 512 + 1 * p.val = _; rw [e0]; omega
  have hcol : (((cfg0.win 3).blk t).view.emb (ix2 p r)) 1 = r := Fin.ext (by
    show win0_3.index t (1 : Fin 2) * 1024 + 1 * r.val = _; rw [e1]; omega)
  unfold scores
  refine Finset.sum_congr rfl fun h _ => ?_
  rw [query_block_apply m c t (ix2 p h) (ix2 ((((cfg0.win 3).blk t).view.emb (ix2 p r)) 0) h) hrow rfl,
    class_block_apply m c t (ix2 r h), row_block_apply m c t (ix2 (0 : Fin 1) h), row_apply m c h, hcol]

/-! ## The blocks cover the array -/

/-- An index is in point `t`'s block iff each coordinate is in the block's range on its axis. -/
theorem mem_block (t : Fin cfg0.N) (i : S16384x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v2).slice (win0_3.rect t)).set ↔ _
  rw [View.set_slice_whole, Rect.mem_set_unit]
  exact Iff.rfl

/-- Every entry of the result lies in some point's block: row `n` in the block of point `n / 512`. -/
theorem covered (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  have hN : cfg0.N = 32 := N_0
  obtain ⟨t, ht⟩ : ∃ t : Fin cfg0.N, t.val = (i 0).val / 512 := ⟨⟨(i 0).val / 512, by rw [hN]; omega⟩, rfl⟩
  obtain ⟨-, -, -, -, -, -, e0, e1⟩ := block_indices t
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    rw [e0, ht]; omega
  | ⟨1, _⟩ =>
    show win0_3.index t (1 : Fin 2) * 1024 ≤ (i 1).val ∧ (i 1).val < win0_3.index t (1 : Fin 2) * 1024 + 1024
    rw [e1]; omega

/-! ## The result array after the run -/

/-- After the last point the result array is the score array of the three arguments. -/
theorem final_scores (c : Dev nD) :
    (dats m 0 c).arrAt 3 cfg0.N
      = scores (m ((c : Thread nD τ).loc main_arg0)) (m ((c : Thread nD τ).loc main_arg1)) (m ((c : Thread nD τ).loc main_arg2)) :=
  (dats m 0 c).arrAt_eq_of_cover 3 _ (fun t _ => flushed_eq m c t) covered

/-- Every weakly fair execution of the program ends with the result array at the score array of the arguments, and
    the arguments unchanged. -/
theorem run : θ_run defs (onTc (τ := τ) (main (F := Ideal))) ⟨m, fun _ => 0, ρ⟩ fun r => ∀ c : Dev nD,
      r.2.mem ((c : Thread nD τ).loc main_v2)
        = scores (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_scores m c), (h c).2⟩) (Value.run_blocks m ρ)

end Cert.KernelIdeal.ArrayValue

end
-- ==== Proof.lean ====
/- Two ways to score 16384 queries against 1024 classes under a diagonal relation, shown to agree.

   The score of query `n` against class `c` is  Σ_h q[n, h] · (cls[c, h] · w[h, 0])  over the 2048 embedding coordinates
   (Proof/Scores.lean). The tiled program scales the class vectors by the diagonal and contracts them with a block of
   512 queries at each of 32 grid points (Proof/BlockProduct.lean: one point's block, entry by entry; Proof/Blocks.lean:
   the 32 blocks are the blocks of the score array and cover it). The plain program scales the queries by the diagonal
   and contracts them with the class vectors (Proof/RefScores.lean). The two summands are one three-fold product
   grouped two ways, so both programs end with the score array of their arguments: on the extended reals, with no
   appeal to the inputs being finite. The narrowing of the operands to bf16 before the contraction is the identity on
   extended reals, and the idealization rewrote nothing, so nothing is owed for it.

   The three frame claims: the tiled program's two readings by its frame run; the plain program's by its run with the
   result dropped. -/
import proofs.«112901_j12713103197296_1_alg».proof.Defs
import proofs.«112901_j12713103197296_1_alg».proof.Proof.Gen.Kernel
import proofs.«112901_j12713103197296_1_alg».proof.Proof.Gen.Kernel.Skeleton
import proofs.«112901_j12713103197296_1_alg».proof.Proof.Gen.Kernel.Launch
import proofs.«112901_j12713103197296_1_alg».proof.Proof.Gen.Kernel.Points
import proofs.«112901_j12713103197296_1_alg».proof.Proof.Gen.Kernel.Frame
import proofs.«112901_j12713103197296_1_alg».proof.Proof.Gen.KernelIdeal
import proofs.«112901_j12713103197296_1_alg».proof.Proof.Gen.KernelIdeal.Skeleton
import proofs.«112901_j12713103197296_1_alg».proof.Proof.Gen.KernelIdeal.Launch
import proofs.«112901_j12713103197296_1_alg».proof.Proof.Gen.KernelIdeal.Points
import proofs.«112901_j12713103197296_1_alg».proof.Proof.Gen.KernelIdeal.Frame
import proofs.«112901_j12713103197296_1_alg».proof.Proof.Gen.ReferenceIdeal
import proofs.«112901_j12713103197296_1_alg».proof.Proof.Gen.Pre_finite_inputs
import proofs.«112901_j12713103197296_1_alg».proof.Proof.Gen.KernelIdeal.Value
import proofs.«112901_j12713103197296_1_alg».proof.Proof.Gen.ReferenceIdeal.Run
import proofs.«112901_j12713103197296_1_alg».proof.Proof.Gen.ReferenceIdeal.Read
import proofs.«112901_j12713103197296_1_alg».proof.Proof.Scores
import proofs.«112901_j12713103197296_1_alg».proof.Proof.RefScores
import proofs.«112901_j12713103197296_1_alg».proof.Proof.Blocks
import Idealize.ShloMosaic.Adequacy
import Idealize.ShloMosaic.Init

noncomputable section

namespace Cert.Proof

open Idealize.ShloMosaic Idealize.SL.Sem

/-- The word-level program runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The plain program's run, with what it says of the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the three arguments both programs end with the score array of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq_scores,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
